-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S50000 : Shape := ⟨1, ![50000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x512 .f32) (main_arg1 : IVec S2x1600000 32) (main_arg2 : IVec S50000 32) (main_arg3 : FVec F S512x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x512 : Shape := ⟨2, ![50000, 512]⟩
abbrev S2x1600000 : Shape := ⟨2, ![2, 1600000]⟩
abbrev S50000 : Shape := ⟨1, ![50000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x128 : Shape := ⟨2, ![50000, 128]⟩
abbrev S2000x512 : Shape := ⟨2, ![2000, 512]⟩
abbrev S2000x128 : Shape := ⟨2, ![2000, 128]⟩
abbrev S1600000x128 : Shape := ⟨2, ![1600000, 128]⟩
abbrev S50000x1 : Shape := ⟨2, ![50000, 1]⟩
abbrev S1x128 : Shape := ⟨2, ![1, 128]⟩
abbrev S5000x128 : Shape := ⟨2, ![5000, 128]⟩
abbrev S8x128 : Shape := ⟨2, ![8, 128]⟩
abbrev S8 : Shape := ⟨1, ![8]⟩
abbrev S8x1 : Shape := ⟨2, ![8, 1]⟩
abbrev S8x2 : Shape := ⟨2, ![8, 2]⟩
abbrev S1x2 : Shape := ⟨2, ![1, 2]⟩

abbrev nBuf : Space → Nat
  | .hbm => 117
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S50000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S50000, .f32⟩
  | .hbm, ⟨17, _⟩ => ⟨S1600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S50000, .f32⟩
  | .hbm, ⟨43, _⟩ => ⟨S50000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S50000x128, .f32⟩
  | .hbm, ⟨58, _⟩ => ⟨S1600000x1, .i32⟩
  | .hbm, ⟨59, _⟩ => ⟨S50000x128, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x1, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S50000x128, .f32⟩
  | .hbm, ⟨85, _⟩ => ⟨S1600000x1, .i32⟩
  | .hbm, ⟨86, _⟩ => ⟨S50000x128, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S8x128, .f32⟩
  | .hbm, ⟨99, _⟩ => ⟨S50000x1, .i32⟩
  | .hbm, ⟨100, _⟩ => ⟨S8x128, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S8, .f32⟩
  | .hbm, ⟨105, _⟩ => ⟨S50000x1, .i32⟩
  | .hbm, ⟨106, _⟩ => ⟨S8, .f32⟩
  | .hbm, ⟨107, _⟩ => ⟨S_, .f32⟩
  | .hbm, ⟨108, _⟩ => ⟨S8, .f32⟩
  | .hbm, ⟨109, _⟩ => ⟨S8, .f32⟩
  | .hbm, ⟨110, _⟩ => ⟨S8x1, .f32⟩
  | .hbm, ⟨111, _⟩ => ⟨S8x128, .f32⟩
  | .hbm, ⟨112, _⟩ => ⟨S8x128, .f32⟩
  | .hbm, ⟨113, _⟩ => ⟨S8x2, .f32⟩
  | .hbm, ⟨114, _⟩ => ⟨S1x2, .f32⟩
  | .hbm, ⟨115, _⟩ => ⟨S8x2, .f32⟩
  | .hbm, ⟨116, _⟩ => ⟨S8x2, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_12 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S8x128 : S_.BroadcastsInDim S8x128 (![] : Fin 0 → Fin S8x128.rank)
  bcast_S_S8 : S_.BroadcastsInDim S8 (![] : Fin 0 → Fin S8.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x512_S512x128_S2000x128_1_0_0_1_n_n_wf : DotDims.WF S2000x512 S512x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  scatter_S8x128_S50000x1_S50000x128_1_0_0_1_wf : ScatterDims.WF S8x128 S50000x1 S50000x128 [1] [0] [0] 1
  scatter_S8_S50000x1_S50000_n_0_0_1_wf : ScatterDims.WF S8 S50000x1 S50000 [] [0] [0] 1
  dot_S8x128_S128x2_S8x2_1_0_0_1_n_n_wf : DotDims.WF S8x128 S128x2 S8x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S8x128_S50000x1_S50000x128_1_0_0_1 : ScatterDims S8x128 S50000x1 S50000x128 where
  updateWindowDims := [1]
  insertedWindowDims := [0]
  scatterDimsToOperandDims := [0]
  indexVectorDim := 1
  wf := scatter_S8x128_S50000x1_S50000x128_1_0_0_1_wf
def scatter_S8_S50000x1_S50000_n_0_0_1 : ScatterDims S8 S50000x1 S50000 where
  updateWindowDims := []
  insertedWindowDims := [0]
  scatterDimsToOperandDims := [0]
  indexVectorDim := 1
  wf := scatter_S8_S50000x1_S50000_n_0_0_1_wf
def dot_S8x128_S128x2_S8x2_1_0_0_1_n_n : DotDims S8x128 S128x2 S8x2 where
  lhsContracting := [1]
  rhsContracting := [0]
  lhsNonContracting := [0]
  rhsNonContracting := [1]
  lhsBatch := []
  rhsBatch := []
  wf := dot_S8x128_S128x2_S8x2_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S50000 : Shape := ⟨1, ![50000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S50000x128 : Shape := ⟨2, ![50000, 128]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S8x128 : Shape := ⟨2, ![8, 128]⟩
abbrev S8 : Shape := ⟨1, ![8]⟩
abbrev S8x1 : Shape := ⟨2, ![8, 1]⟩
abbrev S8x2 : Shape := ⟨2, ![8, 2]⟩
abbrev S1x2 : Shape := ⟨2, ![1, 2]⟩

abbrev nBuf : Space → Nat
  | .hbm => 147
  | .vmem => 0
  | .smem => 0
  | _ => 0

abbrev hbmTy0_0 (i : Nat) : BufTy := match i % 128 with
  | 0 => ⟨S50000x512, .f32⟩
  | 1 => ⟨S2x1600000, .i32⟩
  | 2 => ⟨S50000, .i32⟩
  | 3 => ⟨S512x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S50000x128, .f32⟩
  | 14 => ⟨S_, .f32⟩
  | 15 => ⟨S1600000, .f32⟩
  | 16 => ⟨S_, .f32⟩
  | 17 => ⟨S50000, .f32⟩
  | 18 => ⟨S1600000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S50000x128, .f32⟩
  | 57 => ⟨S1600000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .f32⟩
  | 72 => ⟨S1600000, .f32⟩
  | 73 => ⟨S_, .f32⟩
  | 74 => ⟨S50000, .f32⟩
  | 75 => ⟨S1600000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x1, .f32⟩
  | 110 => ⟨S1600000x128, .f32⟩
  | 111 => ⟨S1600000x128, .f32⟩
  | 112 => ⟨S_, .f32⟩
  | 113 => ⟨S50000x128, .f32⟩
  | 114 => ⟨S1600000x1, .i32⟩
  | 115 => ⟨S50000x128, .f32⟩
  | 116 => ⟨S50000, .f32⟩
  | 117 => ⟨S50000x1, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .f32⟩
  | _ => ⟨S50000x512, .f32⟩

abbrev hbmTy0_1 (i : Nat) : BufTy := match i % 128 with
  | 0 => ⟨S8x128, .f32⟩
  | 1 => ⟨S50000x1, .i32⟩
  | 2 => ⟨S8x128, .f32⟩
  | 3 => ⟨S_, .f32⟩
  | 4 => ⟨S50000, .f32⟩
  | 5 => ⟨S_, .f32⟩
  | 6 => ⟨S8, .f32⟩
  | 7 => ⟨S50000x1, .i32⟩
  | 8 => ⟨S8, .f32⟩
  | 9 => ⟨S_, .f32⟩
  | 10 => ⟨S8, .f32⟩
  | 11 => ⟨S8, .f32⟩
  | 12 => ⟨S8x1, .f32⟩
  | 13 => ⟨S8x128, .f32⟩
  | 14 => ⟨S8x128, .f32⟩
  | 15 => ⟨S8x2, .f32⟩
  | 16 => ⟨S1x2, .f32⟩
  | 17 => ⟨S8x2, .f32⟩
  | 18 => ⟨S8x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S8x128 : S_.BroadcastsInDim S8x128 (![] : Fin 0 → Fin S8x128.rank)
  bcast_S_S8 : S_.BroadcastsInDim S8 (![] : Fin 0 → Fin S8.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  dot_S50000x512_S512x128_S50000x128_1_0_0_1_n_n_wf : DotDims.WF S50000x512 S512x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S8x128_S50000x1_S50000x128_1_0_0_1_wf : ScatterDims.WF S8x128 S50000x1 S50000x128 [1] [0] [0] 1
  scatter_S8_S50000x1_S50000_n_0_0_1_wf : ScatterDims.WF S8 S50000x1 S50000 [] [0] [0] 1
  dot_S8x128_S128x2_S8x2_1_0_0_1_n_n_wf : DotDims.WF S8x128 S128x2 S8x2 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S8x128_S50000x1_S50000x128_1_0_0_1 : ScatterDims S8x128 S50000x1 S50000x128 where
  updateWindowDims := [1]
  insertedWindowDims := [0]
  scatterDimsToOperandDims := [0]
  indexVectorDim := 1
  wf := scatter_S8x128_S50000x1_S50000x128_1_0_0_1_wf
def scatter_S8_S50000x1_S50000_n_0_0_1 : ScatterDims S8 S50000x1 S50000 where
  updateWindowDims := []
  insertedWindowDims := [0]
  scatterDimsToOperandDims := [0]
  indexVectorDim := 1
  wf := scatter_S8_S50000x1_S50000_n_0_0_1_wf
def dot_S8x128_S128x2_S8x2_1_0_0_1_n_n : DotDims S8x128 S128x2 S8x2 where
  lhsContracting := [1]
  rhsContracting := [0]
  lhsNonContracting := [0]
  rhsNonContracting := [1]
  lhsBatch := []
  rhsBatch := []
  wf := dot_S8x128_S128x2_S8x2_1_0_0_1_n_n_wf

class Facts : Prop extends Facts₀ where

variable [Facts]
-- ==== Proof.NamedRun.lean ====
/-
  The idealized kernel's program, run from launch to return, with EVERY buffer's final contents named.

  The program is eight segments: a stretch of host operations, the first row-tiled matrix product, two
  stretches, the second product, three stretches. Each boundary's buffer contents is a function of the launch
  memory: a stretch applies its operations to the contents before it; a product leaves its output array at what
  its grid points wrote back and every other buffer as it was. The run below says that every weakly fair
  execution terminates and that each unscoped buffer of each core then holds the last boundary's contents
  `W8`; the result buffer and the nine argument buffers are instances.
-/
import proofs.«174691_j76982993814213_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every unscoped buffer `b` of every core `c`
    ends at `W8 m ρ c b`: the contents after the last stretch of host operations. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run read at the result and at the arguments: the result buffer ends at the last boundary's
    contents there, and each argument buffer as launched (no operation and no product writes one). -/
theorem run_result : θ_run defs (onTc (τ := τ) (main (F := F))) ⟨m, fun _ => 0, ρ⟩ (fun r => ∀ c : Dev nD,
      r.2.mem ((c.tc : Thread nD τ).loc main_v86) = W8 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v86 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)
    (run_all m ρ)

end Cert.KernelIdeal.Named

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.LibDotGeneralRowCol.lean ====
/-
  A plain matrix product on the host, read at an entry, at the ideal values.

  For any dimension numbers over an [M, K] left operand, a [K, N] right operand and an [M, N] result that
  contract the left operand's second axis against the right operand's first (stated as four coordinate facts
  about the dimension numbers' operand indices, which a literal record proves by unfolding), entry (p, c) of
  the host's product of X and W is the sum over k of X p k · W k c. General in M, K, N and in both operand
  formats; nothing in it is specific to one program.
-/
import Idealize.ShloMosaic.Lib.ValueIdx
import Idealize.ShloMosaic.PureOps.Ideal.Laws

noncomputable section

namespace Cert.LibDotGeneral

open Idealize.ShloMosaic Idealize.ShloMosaic.ValueIdx

/-- For dimension numbers contracting the left operand's columns against the right operand's rows
    (the four coordinate facts hl0 … hr1 say so), entry (p, c) of the host's product is Σ_k X p k · W k c. -/
theorem dotGeneral_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision)
    (X : FVec Ideal ⟨2, ![M, K]⟩ φ₁) (W : FVec Ideal ⟨2, ![K, N]⟩ φ₂) (p : Fin M) (c : Fin N) :
    Host.dotGeneral D prec X W (ix2 p c) = ∑ k : Fin K, X (ix2 p k) * W (ix2 k c) := by
  refine (Ideal.dotGeneral_apply D prec .single X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibDotGeneral

end
-- ==== Proof.ProductOne.lean ====
/-
  The FIRST row-tiled matrix product of the idealized kernel, read as ONE array.

  The kernel computes X · W for X : [50000, 512] and W : [512, 128] in 25 grid points. Point t loads rows
  2000·t … 2000·t + 1999 of X and all of W, multiplies them (the change of float format on the way in is the
  identity on the extended reals) into a zero accumulator, and writes the [2000, 128] tile back to rows
  2000·t … of the output. Entry (p, q) of a tile is Σ_k X(2000·t + p, k) · W(k, q): exactly entry (2000·t + p, q) of the
  host's product of X and W. The 25 tiles cover every row (row r lies in tile r / 2000), so whatever contents
  `V` the region is entered with, its output array ends as the host's product of the two input arrays.
-/
import proofs.«174691_j76982993814213_1_alg».proof.Proof.Gen.KernelIdeal.Frame
import proofs.«174691_j76982993814213_1_alg».proof.Proof.Gen.ReferenceIdeal
import proofs.«174691_j76982993814213_1_alg».proof.Proof.LibMatmulRowCol
import proofs.«174691_j76982993814213_1_alg».proof.Proof.LibDotGeneralRowCol
import Idealize.ShloMosaic.Lib.Pipeline.Value
import Idealize.ShloMosaic.Lib.ValueIdx

set_option maxRecDepth 16384

noncomputable section

namespace Cert.KernelIdeal.ProductOne

open Cert.KernelIdeal Cert.KernelIdeal.Gen Idealize.ShloMosaic Idealize.ShloMosaic.TcCoe Idealize.SL.Sem
open Idealize.ShloMosaic.ValueIdx
open Idealize.ShloMosaic.Pipeline (Dat)

/-- The dimension numbers of one tile's product: [2000, 512] by [512, 128]. -/
abbrev tileDims := dot_S2000x512_S512x128_S2000x128_1_0_0_1_n_n
/-- The dimension numbers of the host's whole product: [50000, 512] by [512, 128]. -/
abbrev hostDims := Cert.ReferenceIdeal.dot_S50000x512_S512x128_S50000x128_1_0_0_1_n_n

theorem hz : (![0, 0] : Fin 2 → Nat) = fun _ => 0 := funext fun a => by fin_cases a <;> rfl

/-! ## Both products contract the left operand's columns against the right operand's rows -/

theorem tile_l0 (i : S2000x128.Idx) (q : tileDims.contr.Idx) : (tileDims.lhsIdx i q 0).val = (i 0).val := by
  unfold DotDims.lhsIdx
  rw [dif_neg (show ¬(0 : Fin S2000x512.rank) ∈ tileDims.lhsBatch by decide), dif_pos (show (0 : Fin S2000x512.rank) ∈ tileDims.lhsNonContracting by decide)]
  rfl
theorem tile_l1 (i : S2000x128.Idx) (q : tileDims.contr.Idx) : (tileDims.lhsIdx i q 1).val = (q ⟨0, by decide⟩).val :=
  tileDims.lhsIdx_val_of_single rfl i q
theorem tile_r0 (i : S2000x128.Idx) (q : tileDims.contr.Idx) : (tileDims.rhsIdx i q 0).val = (q ⟨0, by decide⟩).val :=
  tileDims.rhsIdx_val_of_single rfl i q
theorem tile_r1 (i : S2000x128.Idx) (q : tileDims.contr.Idx) : (tileDims.rhsIdx i q 1).val = (i 1).val := by
  unfold DotDims.rhsIdx
  rw [dif_neg (show ¬(1 : Fin S512x128.rank) ∈ tileDims.rhsBatch by decide), dif_pos (show (1 : Fin S512x128.rank) ∈ tileDims.rhsNonContracting by decide)]
  rfl

theorem host_l0 (i : S50000x128.Idx) (q : hostDims.contr.Idx) : (hostDims.lhsIdx i q 0).val = (i 0).val := by
  unfold DotDims.lhsIdx
  rw [dif_neg (show ¬(0 : Fin S50000x512.rank) ∈ hostDims.lhsBatch by decide), dif_pos (show (0 : Fin S50000x512.rank) ∈ hostDims.lhsNonContracting by decide)]
  rfl
theorem host_l1 (i : S50000x128.Idx) (q : hostDims.contr.Idx) : (hostDims.lhsIdx i q 1).val = (q ⟨0, by decide⟩).val :=
  hostDims.lhsIdx_val_of_single rfl i q
theorem host_r0 (i : S50000x128.Idx) (q : hostDims.contr.Idx) : (hostDims.rhsIdx i q 0).val = (q ⟨0, by decide⟩).val :=
  hostDims.rhsIdx_val_of_single rfl i q
theorem host_r1 (i : S50000x128.Idx) (q : hostDims.contr.Idx) : (hostDims.rhsIdx i q 1).val = (i 1).val := by
  unfold DotDims.rhsIdx
  rw [dif_neg (show ¬(1 : Fin S512x128.rank) ∈ hostDims.rhsBatch by decide), dif_pos (show (1 : Fin S512x128.rank) ∈ hostDims.rhsNonContracting by decide)]
  rfl

/-! ## One entry of a tile, and one entry of the host's product -/

/-- Entry (p, q) of what a grid point stores is Σ_k x(p, k) · w(k, q) of the blocks it loaded. -/
theorem tile_apply (x : Vec Ideal S2000x512 .f32) (w : Vec Ideal S512x128 .f32) (p : Fin 2000) (q : Fin 128) :
    k0_pay1 (F := Ideal) x w (ix2 p q) = ∑ k : Fin 512, x (ix2 p k) * w (ix2 k q) := by
  unfold k0_pay1
  exact Cert.LibMatmul.matmul_rowcol (M := 2000) (K := 512) (N := 128) tileDims rfl rfl tile_l0 tile_l1 tile_r0 tile_r1 _ _ p q

/-- Entry (r, q) of the host's product is Σ_k X(r, k) · W(k, q). -/
theorem host_apply (X : FVec Ideal S50000x512 .f32) (W : FVec Ideal S512x128 .f32) (r : Fin 50000) (q : Fin 128) :
    Host.dotGeneral hostDims none X W (ix2 r q) = ∑ k : Fin 512, X (ix2 r k) * W (ix2 k q) :=
  Cert.LibDotGeneral.dotGeneral_rowcol (M := 50000) (K := 512) (N := 128) hostDims rfl rfl host_l0 host_l1 host_r0 host_r1 none X W r q

/-! ## The grid: point t works on row block t of X and of the output, and on all of W -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Region

variable (V : (c : Dev nD) → (b : Ref sig .tc) → Buf (Elt Ideal) ((c : Thread nD τ).loc b))

/-- The host's product of the two input arrays as the region finds them. -/
abbrev product (c : Dev nD) : FVec Ideal S50000x128 .f32 :=
  Host.dotGeneral (φ₁ := .f32) (φ₂ := .f32) hostDims none (V c main_arg0) (V c main_arg3)

/-- What point t writes back is block t of the host's product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0, e1, e2, e3, e4, e5⟩ := idx_facts t
  have hN : grid0.N = 25 := N_0
  have ht : t.val < 25 := hN ▸ t.isLt
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hq : q.val < 128 := q.isLt
  have eo : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show k0_pay1 (iblk0 V c 0 t) (iblk0 V c 1 t) (ix2 p q) = product V c (((cfg0.win 2).blk t).view.emb (ix2 p q))
  rw [eo]
  refine (tile_apply _ _ p q).trans ((host_apply _ _ _ q).trans ?_).symm
  refine Finset.sum_congr rfl fun k _ => ?_
  have hk : k.val < 512 := k.isLt
  have ex : ((cfg0.win 0).blk t).view.emb (ix2 p k) = ix2 (⟨t.val * 2000 + p.val, by omega⟩ : Fin 50000) k := by
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  have ew : ((cfg0.win 1).blk t).view.emb (ix2 k q) = ix2 k q := by
    funext a; apply Fin.ext
    match a with
    | ⟨0, _⟩ => show win0_1.index t (0 : Fin 2) * 512 + 1 * k.val = k.val; omega
    | ⟨1, _⟩ => show win0_1.index t (1 : Fin 2) * 128 + 1 * q.val = q.val; omega
  have hx : iblk0 V c 0 t (ix2 p k) = V c main_arg0 (ix2 (⟨t.val * 2000 + p.val, by omega⟩ : Fin 50000) k) := by
    show V c main_arg0 (((cfg0.win 0).blk t).view.emb (ix2 p k)) = _
    rw [ex]
  have hw : iblk0 V c 1 t (ix2 k q) = V c main_arg3 (ix2 k q) := by
    show V c main_arg3 (((cfg0.win 1).blk t).view.emb (ix2 k q)) = _
    rw [ew]
  rw [hx, hw]

/-- An index of the output array is in point t's block iff each coordinate is in the block's range. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- Row r of the output lies in the block of point r / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 25 := N_0
  have hlt : (i 0).val / 2000 < grid0.N := by rw [hN]; omega
  obtain ⟨e0, e1, e2, e3, e4, e5⟩ := idx_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    rw [e5]; omega

/-- THE OUTPUT ARRAY after the region: the host's product of the two input arrays as the region found them. -/
theorem array_eq (c : Dev nD) : (dat0 V c).arrAt 2 cfg0.N = product V c :=
  (dat0 V c).arrAt_eq_of_cover 2 (product V c) (fun t _ => flushed_eq V c t) cover

end Region

end Cert.KernelIdeal.ProductOne

end
-- ==== Proof.ProductTwo.lean ====
/-
  The SECOND row-tiled matrix product of the idealized kernel, read as ONE array.

  The kernel computes X · W for X : [50000, 128] and W : [128, 128] in 10 grid points. Point t loads rows
  5000·t … 5000·t + 4999 of X and all of W, multiplies them (the cast of the block to its own shape and the change of float format on the way in are
  the identity on the extended reals) into a zero accumulator, and writes the [5000, 128] tile back to rows
  5000·t … of the output. Entry (p, q) of a tile is Σ_k X(5000·t + p, k) · W(k, q): exactly entry (5000·t + p, q) of the
  host's product of X and W. The 10 tiles cover every row (row r lies in tile r / 5000), so whatever contents
  `V` the region is entered with, its output array ends as the host's product of the two input arrays.
-/
import proofs.«174691_j76982993814213_1_alg».proof.Proof.Gen.KernelIdeal.Frame
import proofs.«174691_j76982993814213_1_alg».proof.Proof.Gen.ReferenceIdeal
import proofs.«174691_j76982993814213_1_alg».proof.Proof.LibMatmulRowCol
import proofs.«174691_j76982993814213_1_alg».proof.Proof.LibDotGeneralRowCol
import Idealize.ShloMosaic.Lib.Pipeline.Value
import Idealize.ShloMosaic.Lib.ValueIdx

set_option maxRecDepth 16384

noncomputable section

namespace Cert.KernelIdeal.ProductTwo

open Cert.KernelIdeal Cert.KernelIdeal.Gen Idealize.ShloMosaic Idealize.ShloMosaic.TcCoe Idealize.SL.Sem
open Idealize.ShloMosaic.ValueIdx
open Idealize.ShloMosaic.Pipeline (Dat)

/-- The dimension numbers of one tile's product: [5000, 128] by [128, 128]. -/
abbrev tileDims := dot_S5000x128_S128x128_S5000x128_1_0_0_1_n_n
/-- The dimension numbers of the host's whole product: [50000, 128] by [128, 128]. -/
abbrev hostDims := Cert.ReferenceIdeal.dot_S50000x128_S128x128_S50000x128_1_0_0_1_n_n

theorem hz : (![0, 0] : Fin 2 → Nat) = fun _ => 0 := funext fun a => by fin_cases a <;> rfl

/-! ## Both products contract the left operand's columns against the right operand's rows -/

theorem tile_l0 (i : S5000x128.Idx) (q : tileDims.contr.Idx) : (tileDims.lhsIdx i q 0).val = (i 0).val := by
  unfold DotDims.lhsIdx
  rw [dif_neg (show ¬(0 : Fin S5000x128.rank) ∈ tileDims.lhsBatch by decide), dif_pos (show (0 : Fin S5000x128.rank) ∈ tileDims.lhsNonContracting by decide)]
  rfl
theorem tile_l1 (i : S5000x128.Idx) (q : tileDims.contr.Idx) : (tileDims.lhsIdx i q 1).val = (q ⟨0, by decide⟩).val :=
  tileDims.lhsIdx_val_of_single rfl i q
theorem tile_r0 (i : S5000x128.Idx) (q : tileDims.contr.Idx) : (tileDims.rhsIdx i q 0).val = (q ⟨0, by decide⟩).val :=
  tileDims.rhsIdx_val_of_single rfl i q
theorem tile_r1 (i : S5000x128.Idx) (q : tileDims.contr.Idx) : (tileDims.rhsIdx i q 1).val = (i 1).val := by
  unfold DotDims.rhsIdx
  rw [dif_neg (show ¬(1 : Fin S128x128.rank) ∈ tileDims.rhsBatch by decide), dif_pos (show (1 : Fin S128x128.rank) ∈ tileDims.rhsNonContracting by decide)]
  rfl

theorem host_l0 (i : S50000x128.Idx) (q : hostDims.contr.Idx) : (hostDims.lhsIdx i q 0).val = (i 0).val := by
  unfold DotDims.lhsIdx
  rw [dif_neg (show ¬(0 : Fin S50000x128.rank) ∈ hostDims.lhsBatch by decide), dif_pos (show (0 : Fin S50000x128.rank) ∈ hostDims.lhsNonContracting by decide)]
  rfl
theorem host_l1 (i : S50000x128.Idx) (q : hostDims.contr.Idx) : (hostDims.lhsIdx i q 1).val = (q ⟨0, by decide⟩).val :=
  hostDims.lhsIdx_val_of_single rfl i q
theorem host_r0 (i : S50000x128.Idx) (q : hostDims.contr.Idx) : (hostDims.rhsIdx i q 0).val = (q ⟨0, by decide⟩).val :=
  hostDims.rhsIdx_val_of_single rfl i q
theorem host_r1 (i : S50000x128.Idx) (q : hostDims.contr.Idx) : (hostDims.rhsIdx i q 1).val = (i 1).val := by
  unfold DotDims.rhsIdx
  rw [dif_neg (show ¬(1 : Fin S128x128.rank) ∈ hostDims.rhsBatch by decide), dif_pos (show (1 : Fin S128x128.rank) ∈ hostDims.rhsNonContracting by decide)]
  rfl

/-! ## One entry of a tile, and one entry of the host's product -/

/-- Entry (p, q) of what a grid point stores is Σ_k x(p, k) · w(k, q) of the blocks it loaded. -/
theorem tile_apply (x : Vec Ideal S5000x128 .f32) (w : Vec Ideal S128x128 .f32) (p : Fin 5000) (q : Fin 128) :
    k1_pay1 (F := Ideal) x w (ix2 p q) = ∑ k : Fin 128, x (ix2 p k) * w (ix2 k q) := by
  unfold k1_pay1
  refine (Cert.LibMatmul.matmul_rowcol (M := 5000) (K := 128) (N := 128) tileDims rfl rfl tile_l0 tile_l1 tile_r0 tile_r1 _ _ p q).trans ?_
  refine Finset.sum_congr rfl fun k _ => ?_
  show shapeCast S5000x128 x shapeCasts_S5000x128_S5000x128 (ix2 p k) * w (ix2 k q) = x (ix2 p k) * w (ix2 k q)
  rw [shapeCast_self]

/-- Entry (r, q) of the host's product is Σ_k X(r, k) · W(k, q). -/
theorem host_apply (X : FVec Ideal S50000x128 .f32) (W : FVec Ideal S128x128 .f32) (r : Fin 50000) (q : Fin 128) :
    Host.dotGeneral hostDims none X W (ix2 r q) = ∑ k : Fin 128, X (ix2 r k) * W (ix2 k q) :=
  Cert.LibDotGeneral.dotGeneral_rowcol (M := 50000) (K := 128) (N := 128) hostDims rfl rfl host_l0 host_l1 host_r0 host_r1 none X W r q

/-! ## The grid: point t works on row block t of X and of the output, and on all of W -/

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Region

variable (V : (c : Dev nD) → (b : Ref sig .tc) → Buf (Elt Ideal) ((c : Thread nD τ).loc b))

/-- The host's product of the two input arrays as the region finds them. -/
abbrev product (c : Dev nD) : FVec Ideal S50000x128 .f32 :=
  Host.dotGeneral (φ₁ := .f32) (φ₂ := .f32) hostDims none (V c main_v48) (V c main_arg5)

/-- What point t writes back is block t of the host's product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  have hN : grid1.N = 10 := N_1
  have ht : t.val < 10 := hN ▸ t.isLt
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hq : q.val < 128 := q.isLt
  have eo : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  show k1_pay1 (iblk1 V c 0 t) (iblk1 V c 1 t) (ix2 p q) = product V c (((cfg1.win 2).blk t).view.emb (ix2 p q))
  rw [eo]
  refine (tile_apply _ _ p q).trans ((host_apply _ _ _ q).trans ?_).symm
  refine Finset.sum_congr rfl fun k _ => ?_
  have hk : k.val < 128 := k.isLt
  have ex : ((cfg1.win 0).blk t).view.emb (ix2 p k) = ix2 (⟨t.val * 5000 + p.val, by omega⟩ : Fin 50000) k := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have ew : ((cfg1.win 1).blk t).view.emb (ix2 k q) = ix2 k q := by
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have hx : iblk1 V c 0 t (ix2 p k) = V c main_v48 (ix2 (⟨t.val * 5000 + p.val, by omega⟩ : Fin 50000) k) := by
    show V c main_v48 (((cfg1.win 0).blk t).view.emb (ix2 p k)) = _
    rw [ex]
  have hw : iblk1 V c 1 t (ix2 k q) = V c main_arg5 (ix2 k q) := by
    show V c main_arg5 (((cfg1.win 1).blk t).view.emb (ix2 k q)) = _
    rw [ew]
  rw [hx, hw]

/-- An index of the output array is in point t's block iff each coordinate is in the block's range. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Row r of the output lies in the block of point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  have hlt : (i 0).val / 5000 < grid1.N := by rw [hN]; omega
  obtain ⟨e0, e1, e2, e3, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    rw [e5]; omega

/-- THE OUTPUT ARRAY after the region: the host's product of the two input arrays as the region found them. -/
theorem array_eq (c : Dev nD) : (dat1 V c).arrAt 2 cfg1.N = product V c :=
  (dat1 V c).arrAt_eq_of_cover 2 (product V c) (fun t _ => flushed_eq V c t) cover

end Region

end Cert.KernelIdeal.ProductTwo

end
-- ==== Proof.Boundaries.lean ====
/-
  The idealized kernel's buffers at each boundary of its program, as the reference's stages.

  The kernel's program is: host operations (the node degrees deg = 1 + the number of edges into a node,
  dinv = deg^(-1/2), the edge weights dinv[src] · dinv[dst] and the self-loop weights dinv · dinv); the product
  X · W1 in row tiles; host operations (the first layer: the weighted sum of the neighbours' rows, plus the
  node's own weighted row, plus the bias, clipped at 0); the product H1 · W2 in row tiles; host operations (the
  second layer, the mean over each graph's nodes, the final linear map). The reference is the same chain with
  the host's own matrix product in place of each tiled one, and it recomputes the degrees and weights for its
  second layer from the same edge list.

  Each tiled product leaves the host's product of its two input arrays (the two modules imported below), so
  boundary by boundary every buffer a later step reads holds the value of the reference's corresponding
  stage, as a function of the arrays at launch. The statements below walk the program once: the contents
  after the first stretch; after the first product; after the first layer; after the second product; and
  the result. No law of arithmetic is used: both programs apply the same operations to equal operands.
-/
import proofs.«174691_j76982993814213_1_alg».proof.Proof.Gen.KernelIdeal.Frame
import proofs.«174691_j76982993814213_1_alg».proof.Proof.Gen.ReferenceIdeal.Read
import proofs.«174691_j76982993814213_1_alg».proof.Proof.ProductOne
import proofs.«174691_j76982993814213_1_alg».proof.Proof.ProductTwo
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)

/-! ## The clip at 0 that ends each layer, over ANY buffer contents

Each layer ends with max(·, 0) against a zero array. Read over arbitrary contents `Fv`, the stretch writes the
maximum of what the buffer before it holds and the zero array; stated once here, so that the layers below
read the clip as one operation. -/

/-- The first layer's clip: the stretch writes max(v47, 0). -/
theorem clip_first (Fv : Valuation τ sig (Elt Ideal)) :
    StableHlo.after hostOps1_1 Fv (Proc.devRef .tc main_v48)
      = maximumf (F := Ideal) (Fv (Proc.devRef .tc main_v47) : FVec Ideal S50000x128 .f32)
          (broadcastInDim S50000x128 ![] bcast_S_S50000x128 (constant (F := Ideal) S_ .f32 0x00000000#32)) := by
  after_results_simp <;> rfl

/-- The second layer's clip: the stretch writes max(v69, 0). -/
theorem clip_second (Fv : Valuation τ sig (Elt Ideal)) :
    StableHlo.after hostOps2_1 Fv (Proc.devRef .tc main_v70)
      = maximumf (F := Ideal) (Fv (Proc.devRef .tc main_v69) : FVec Ideal S50000x128 .f32)
          (broadcastInDim S50000x128 ![] bcast_S_S50000x128 (constant (F := Ideal) S_ .f32 0x00000000#32)) := by
  after_results_simp <;> rfl

/-! ## After the first stretch of host operations -/

/-- Argument 0 is not written by the first stretch. -/
theorem W1_arg0 : W1 m ρ c (Proc.devRef .tc main_arg0) = m ((c.tc : Thread nD τ).loc main_arg0) := by
  show StableHlo.after hostOps0 (W0 m ρ c) (Proc.devRef .tc main_arg0) = _
  after_results_simp <;> rfl
/-- Argument 2 is not written by the first stretch. -/
theorem W1_arg2 : W1 m ρ c (Proc.devRef .tc main_arg2) = m ((c.tc : Thread nD τ).loc main_arg2) := by
  show StableHlo.after hostOps0 (W0 m ρ c) (Proc.devRef .tc main_arg2) = _
  after_results_simp <;> rfl
/-- Argument 3 is not written by the first stretch. -/
theorem W1_arg3 : W1 m ρ c (Proc.devRef .tc main_arg3) = m ((c.tc : Thread nD τ).loc main_arg3) := by
  show StableHlo.after hostOps0 (W0 m ρ c) (Proc.devRef .tc main_arg3) = _
  after_results_simp <;> rfl
/-- Argument 4 is not written by the first stretch. -/
theorem W1_arg4 : W1 m ρ c (Proc.devRef .tc main_arg4) = m ((c.tc : Thread nD τ).loc main_arg4) := by
  show StableHlo.after hostOps0 (W0 m ρ c) (Proc.devRef .tc main_arg4) = _
  after_results_simp <;> rfl
/-- Argument 5 is not written by the first stretch. -/
theorem W1_arg5 : W1 m ρ c (Proc.devRef .tc main_arg5) = m ((c.tc : Thread nD τ).loc main_arg5) := by
  show StableHlo.after hostOps0 (W0 m ρ c) (Proc.devRef .tc main_arg5) = _
  after_results_simp <;> rfl
/-- Argument 6 is not written by the first stretch. -/
theorem W1_arg6 : W1 m ρ c (Proc.devRef .tc main_arg6) = m ((c.tc : Thread nD τ).loc main_arg6) := by
  show StableHlo.after hostOps0 (W0 m ρ c) (Proc.devRef .tc main_arg6) = _
  after_results_simp <;> rfl
/-- Argument 7 is not written by the first stretch. -/
theorem W1_arg7 : W1 m ρ c (Proc.devRef .tc main_arg7) = m ((c.tc : Thread nD τ).loc main_arg7) := by
  show StableHlo.after hostOps0 (W0 m ρ c) (Proc.devRef .tc main_arg7) = _
  after_results_simp <;> rfl
/-- Argument 8 is not written by the first stretch. -/
theorem W1_arg8 : W1 m ρ c (Proc.devRef .tc main_arg8) = m ((c.tc : Thread nD τ).loc main_arg8) := by
  show StableHlo.after hostOps0 (W0 m ρ c) (Proc.devRef .tc main_arg8) = _
  after_results_simp <;> rfl

/-- After the first stretch: the edges' source nodes. -/
theorem W1_src : W1 m ρ c (Proc.devRef .tc main_v1) = val_main_v1 (F := Ideal) (m ((c.tc : Thread nD τ).loc main_arg1)) := by
  show StableHlo.after hostOps0 (W0 m ρ c) (Proc.devRef .tc main_v1) = _
  after_results_simp <;> rfl
/-- After the first stretch: the edges' target nodes. -/
theorem W1_dst : W1 m ρ c (Proc.devRef .tc main_v3) = val_main_v3 (F := Ideal) (m ((c.tc : Thread nD τ).loc main_arg1)) := by
  show StableHlo.after hostOps0 (W0 m ρ c) (Proc.devRef .tc main_v3) = _
  after_results_simp <;> rfl
/-- After the first stretch: the edge weights dinv[src] · dinv[dst], as the reference's first layer computes them. -/
theorem W1_norm : W1 m ρ c (Proc.devRef .tc main_v25) = val_main_v26 (F := Ideal) (m ((c.tc : Thread nD τ).loc main_arg1)) := by
  show StableHlo.after hostOps0 (W0 m ρ c) (Proc.devRef .tc main_v25) = _
  after_results_simp <;> rfl
/-- After the first stretch: the same edge weights, as the reference's second layer computes them again. -/
theorem W1_norm' : W1 m ρ c (Proc.devRef .tc main_v25) = val_main_v71 (F := Ideal) (m ((c.tc : Thread nD τ).loc main_arg1)) := by
  show StableHlo.after hostOps0 (W0 m ρ c) (Proc.devRef .tc main_v25) = _
  after_results_simp <;> rfl
/-- After the first stretch: the self-loop weights dinv · dinv, as the reference's first layer computes them. -/
theorem W1_self : W1 m ρ c (Proc.devRef .tc main_v26) = val_main_v40 (F := Ideal) (m ((c.tc : Thread nD τ).loc main_arg1)) := by
  show StableHlo.after hostOps0 (W0 m ρ c) (Proc.devRef .tc main_v26) = _
  after_results_simp <;> rfl
/-- After the first stretch: the same self-loop weights, as the reference's second layer computes them again. -/
theorem W1_self' : W1 m ρ c (Proc.devRef .tc main_v26) = val_main_v85 (F := Ideal) (m ((c.tc : Thread nD τ).loc main_arg1)) := by
  show StableHlo.after hostOps0 (W0 m ρ c) (Proc.devRef .tc main_v26) = _
  after_results_simp <;> rfl

/-! ## After the first product: its output is the host's product X · W1; everything else is as before -/

/-- The first product's output array is the reference's X · W1. -/
theorem W2_prod : W2 m ρ c (Proc.devRef .tc main_v27) = val_main_v4 (F := Ideal) (m ((c.tc : Thread nD τ).loc main_arg0)) (m ((c.tc : Thread nD τ).loc main_arg3)) :=
  (W2_arr m ρ c 2).trans ((ProductOne.array_eq (V1 m ρ) c).trans
    (congrArg₂ (Host.dotGeneral (φ₁ := .f32) (φ₂ := .f32) ProductOne.hostDims none) (W1_arg0 m ρ c) (W1_arg3 m ρ c)))
theorem W2_src : W2 m ρ c (Proc.devRef .tc main_v1) = val_main_v1 (F := Ideal) (m ((c.tc : Thread nD τ).loc main_arg1)) :=
  (W2_of_ne m ρ c main_v1 (by decide)).trans (W1_src m ρ c)
theorem W2_dst : W2 m ρ c (Proc.devRef .tc main_v3) = val_main_v3 (F := Ideal) (m ((c.tc : Thread nD τ).loc main_arg1)) :=
  (W2_of_ne m ρ c main_v3 (by decide)).trans (W1_dst m ρ c)
theorem W2_norm : W2 m ρ c (Proc.devRef .tc main_v25) = val_main_v26 (F := Ideal) (m ((c.tc : Thread nD τ).loc main_arg1)) :=
  (W2_of_ne m ρ c main_v25 (by decide)).trans (W1_norm m ρ c)
theorem W2_norm' : W2 m ρ c (Proc.devRef .tc main_v25) = val_main_v71 (F := Ideal) (m ((c.tc : Thread nD τ).loc main_arg1)) :=
  (W2_of_ne m ρ c main_v25 (by decide)).trans (W1_norm' m ρ c)
theorem W2_self : W2 m ρ c (Proc.devRef .tc main_v26) = val_main_v40 (F := Ideal) (m ((c.tc : Thread nD τ).loc main_arg1)) :=
  (W2_of_ne m ρ c main_v26 (by decide)).trans (W1_self m ρ c)
theorem W2_self' : W2 m ρ c (Proc.devRef .tc main_v26) = val_main_v85 (F := Ideal) (m ((c.tc : Thread nD τ).loc main_arg1)) :=
  (W2_of_ne m ρ c main_v26 (by decide)).trans (W1_self' m ρ c)
theorem W2_arg2 : W2 m ρ c (Proc.devRef .tc main_arg2) = m ((c.tc : Thread nD τ).loc main_arg2) :=
  (W2_of_ne m ρ c main_arg2 (by decide)).trans (W1_arg2 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)
theorem W2_arg6 : W2 m ρ c (Proc.devRef .tc main_arg6) = m ((c.tc : Thread nD τ).loc main_arg6) :=
  (W2_of_ne m ρ c main_arg6 (by decide)).trans (W1_arg6 m ρ c)
theorem W2_arg7 : W2 m ρ c (Proc.devRef .tc main_arg7) = m ((c.tc : Thread nD τ).loc main_arg7) :=
  (W2_of_ne m ρ c main_arg7 (by decide)).trans (W1_arg7 m ρ c)
theorem W2_arg8 : W2 m ρ c (Proc.devRef .tc main_arg8) = m ((c.tc : Thread nD τ).loc main_arg8) :=
  (W2_of_ne m ρ c main_arg8 (by decide)).trans (W1_arg8 m ρ c)

/-! ## After the first layer -/

/-- The first layer's output H1 = max(Σ_{edges into i} norm · (X·W1)[src] + self · (X·W1)[i] + b1, 0): the same
    operations as the reference's, on the operands named above. -/
theorem W4_hidden : W4 m ρ c (Proc.devRef .tc main_v48) = val_main_v48 (F := Ideal) (m ((c.tc : Thread nD τ).loc main_arg0)) (m ((c.tc : Thread nD τ).loc main_arg1)) (m ((c.tc : Thread nD τ).loc main_arg3)) (m ((c.tc : Thread nD τ).loc main_arg4)) := by
  show StableHlo.after hostOps1_1 (StableHlo.after hostOps1 (W2 m ρ c)) (Proc.devRef .tc main_v48) = _
  rw [clip_first]
  after_results_simp
  rw [W2_prod m ρ c, W2_src m ρ c, W2_dst m ρ c, W2_norm m ρ c, W2_self m ρ c, W2_arg4 m ρ c]
  rfl
theorem W4_src : W4 m ρ c (Proc.devRef .tc main_v1) = val_main_v1 (F := Ideal) (m ((c.tc : Thread nD τ).loc main_arg1)) := by
  show StableHlo.after hostOps1_1 (StableHlo.after hostOps1 (W2 m ρ c)) (Proc.devRef .tc main_v1) = _
  after_results_simp
  exact W2_src m ρ c
theorem W4_dst : W4 m ρ c (Proc.devRef .tc main_v3) = val_main_v3 (F := Ideal) (m ((c.tc : Thread nD τ).loc main_arg1)) := by
  show StableHlo.after hostOps1_1 (StableHlo.after hostOps1 (W2 m ρ c)) (Proc.devRef .tc main_v3) = _
  after_results_simp
  exact W2_dst m ρ c
theorem W4_norm' : W4 m ρ c (Proc.devRef .tc main_v25) = val_main_v71 (F := Ideal) (m ((c.tc : Thread nD τ).loc main_arg1)) := by
  show StableHlo.after hostOps1_1 (StableHlo.after hostOps1 (W2 m ρ c)) (Proc.devRef .tc main_v25) = _
  after_results_simp
  exact W2_norm' m ρ c
theorem W4_self' : W4 m ρ c (Proc.devRef .tc main_v26) = val_main_v85 (F := Ideal) (m ((c.tc : Thread nD τ).loc main_arg1)) := by
  show StableHlo.after hostOps1_1 (StableHlo.after hostOps1 (W2 m ρ c)) (Proc.devRef .tc main_v26) = _
  after_results_simp
  exact W2_self' m ρ c
theorem W4_arg2 : W4 m ρ c (Proc.devRef .tc main_arg2) = m ((c.tc : Thread nD τ).loc main_arg2) := by
  show StableHlo.after hostOps1_1 (StableHlo.after hostOps1 (W2 m ρ c)) (Proc.devRef .tc main_arg2) = _
  after_results_simp
  exact W2_arg2 m ρ c
theorem W4_arg5 : W4 m ρ c (Proc.devRef .tc main_arg5) = m ((c.tc : Thread nD τ).loc main_arg5) := by
  show StableHlo.after hostOps1_1 (StableHlo.after hostOps1 (W2 m ρ c)) (Proc.devRef .tc main_arg5) = _
  after_results_simp
  exact W2_arg5 m ρ c
theorem W4_arg6 : W4 m ρ c (Proc.devRef .tc main_arg6) = m ((c.tc : Thread nD τ).loc main_arg6) := by
  show StableHlo.after hostOps1_1 (StableHlo.after hostOps1 (W2 m ρ c)) (Proc.devRef .tc main_arg6) = _
  after_results_simp
  exact W2_arg6 m ρ c
theorem W4_arg7 : W4 m ρ c (Proc.devRef .tc main_arg7) = m ((c.tc : Thread nD τ).loc main_arg7) := by
  show StableHlo.after hostOps1_1 (StableHlo.after hostOps1 (W2 m ρ c)) (Proc.devRef .tc main_arg7) = _
  after_results_simp
  exact W2_arg7 m ρ c
theorem W4_arg8 : W4 m ρ c (Proc.devRef .tc main_arg8) = m ((c.tc : Thread nD τ).loc main_arg8) := by
  show StableHlo.after hostOps1_1 (StableHlo.after hostOps1 (W2 m ρ c)) (Proc.devRef .tc main_arg8) = _
  after_results_simp
  exact W2_arg8 m ρ c

/-! ## After the second product: its output is the host's product H1 · W2 -/

/-- The second product's output array is the reference's H1 · W2. -/
theorem W5_prod : W5 m ρ c (Proc.devRef .tc main_v49) = val_main_v49 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (W5_arr m ρ c 2).trans ((ProductTwo.array_eq (V4 m ρ) c).trans
    (congrArg₂ (Host.dotGeneral (φ₁ := .f32) (φ₂ := .f32) ProductTwo.hostDims none) (W4_hidden m ρ c) (W4_arg5 m ρ c)))
theorem W5_src : W5 m ρ c (Proc.devRef .tc main_v1) = val_main_v1 (F := Ideal) (m ((c.tc : Thread nD τ).loc main_arg1)) :=
  (W5_of_ne m ρ c main_v1 (by decide)).trans (W4_src m ρ c)
theorem W5_dst : W5 m ρ c (Proc.devRef .tc main_v3) = val_main_v3 (F := Ideal) (m ((c.tc : Thread nD τ).loc main_arg1)) :=
  (W5_of_ne m ρ c main_v3 (by decide)).trans (W4_dst m ρ c)
theorem W5_norm' : W5 m ρ c (Proc.devRef .tc main_v25) = val_main_v71 (F := Ideal) (m ((c.tc : Thread nD τ).loc main_arg1)) :=
  (W5_of_ne m ρ c main_v25 (by decide)).trans (W4_norm' m ρ c)
theorem W5_self' : W5 m ρ c (Proc.devRef .tc main_v26) = val_main_v85 (F := Ideal) (m ((c.tc : Thread nD τ).loc main_arg1)) :=
  (W5_of_ne m ρ c main_v26 (by decide)).trans (W4_self' m ρ c)
theorem W5_arg2 : W5 m ρ c (Proc.devRef .tc main_arg2) = m ((c.tc : Thread nD τ).loc main_arg2) :=
  (W5_of_ne m ρ c main_arg2 (by decide)).trans (W4_arg2 m ρ c)
theorem W5_arg6 : W5 m ρ c (Proc.devRef .tc main_arg6) = m ((c.tc : Thread nD τ).loc main_arg6) :=
  (W5_of_ne m ρ c main_arg6 (by decide)).trans (W4_arg6 m ρ c)
theorem W5_arg7 : W5 m ρ c (Proc.devRef .tc main_arg7) = m ((c.tc : Thread nD τ).loc main_arg7) :=
  (W5_of_ne m ρ c main_arg7 (by decide)).trans (W4_arg7 m ρ c)
theorem W5_arg8 : W5 m ρ c (Proc.devRef .tc main_arg8) = m ((c.tc : Thread nD τ).loc main_arg8) :=
  (W5_of_ne m ρ c main_arg8 (by decide)).trans (W4_arg8 m ρ c)

/-! ## The result -/

/-- The second layer on H1 · W2, the mean over each graph's nodes and the final linear map: the same operations
    as the reference's, on the operands named above. The kernel's result is the reference's last stage. -/
theorem result_eq : W8 m ρ c (Proc.devRef .tc main_v86)
    = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps2_2 (StableHlo.after hostOps2_1 (StableHlo.after hostOps2 (W5 m ρ c))) (Proc.devRef .tc main_v86) = _
  generalize hG : StableHlo.after hostOps2_1 (StableHlo.after hostOps2 (W5 m ρ c)) = G
  after_results_simp
  subst hG
  rw [clip_second]
  after_results_simp
  rw [W5_prod m ρ c, W5_src m ρ c, W5_dst m ρ c, W5_norm' m ρ c, W5_self' m ρ c, W5_arg6 m ρ c, W5_arg2 m ρ c, W5_arg7 m ρ c, W5_arg8 m ρ c]
  rfl

end Cert.KernelIdeal.Boundaries

end
-- ==== Proof.lean ====
/-
  A two-layer graph convolution with mean pooling and a linear head: the kernel against its jnp reference,
  as extended reals.

  Both programs compute, from node features X : [50000, 512], an edge list (src, dst) of 1600000 edges, a graph
  id per node and the weights,
      deg  = 1 + (number of edges into each node),   dinv = deg^(-1/2),
      layer(H, W, b)[i] = max( Σ_{edges e into i} dinv[src e] · dinv[dst e] · (H·W)[src e]
                               + dinv[i] · dinv[i] · (H·W)[i] + b , 0 ),
      out = mean over each graph's nodes of layer(layer(X, W1, b1), W2, b2), times Wlin, plus blin.
  The kernel computes the two products H·W in row tiles on the accelerator (25 tiles of 2000 rows, then 10 tiles of
  5000 rows), each tile a product into a zero accumulator of a row block of H with all of W; the reference calls
  the host's matrix product. On the extended reals the operand format change in the tiles is the identity and
  an entry of either product is the same sum Σ_k H(i, k) · W(k, j), so each tiled product leaves exactly the
  host's product (ProductOne, ProductTwo). Every other operation is the same in both programs and is applied
  to equal operands (Boundaries), so the results are equal; no finiteness of the inputs and no law of
  arithmetic beyond that reading of a product is needed.

  The three frames: the kernel's two are its segments run (host stretches and tiled products in turn); the
  reference's is its run with the result dropped. The idealization rewrote no operation, so there is nothing
  to preserve beyond the text itself.
-/
import proofs.«174691_j76982993814213_1_alg».proof.Defs
import proofs.«174691_j76982993814213_1_alg».proof.Proof.Gen.Kernel
import proofs.«174691_j76982993814213_1_alg».proof.Proof.Gen.Kernel.Skeleton
import proofs.«174691_j76982993814213_1_alg».proof.Proof.Gen.Kernel.Launch
import proofs.«174691_j76982993814213_1_alg».proof.Proof.Gen.Kernel.Points
import proofs.«174691_j76982993814213_1_alg».proof.Proof.Gen.Kernel.Frame
import proofs.«174691_j76982993814213_1_alg».proof.Proof.Gen.KernelIdeal
import proofs.«174691_j76982993814213_1_alg».proof.Proof.Gen.KernelIdeal.Skeleton
import proofs.«174691_j76982993814213_1_alg».proof.Proof.Gen.KernelIdeal.Launch
import proofs.«174691_j76982993814213_1_alg».proof.Proof.Gen.KernelIdeal.Points
import proofs.«174691_j76982993814213_1_alg».proof.Proof.Gen.KernelIdeal.Frame
import proofs.«174691_j76982993814213_1_alg».proof.Proof.Gen.ReferenceIdeal
import proofs.«174691_j76982993814213_1_alg».proof.Proof.Gen.Pre_finite_inputs
import proofs.«174691_j76982993814213_1_alg».proof.Proof.Gen.ReferenceIdeal.Run
import proofs.«174691_j76982993814213_1_alg».proof.Proof.Gen.ReferenceIdeal.Read
import proofs.«174691_j76982993814213_1_alg».proof.Proof.NamedRun
import proofs.«174691_j76982993814213_1_alg».proof.Proof.Boundaries
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- The idealized kernel runs, and leaves its arguments as launched. -/
theorem frame_kernel_ideal : Cert.frame_KernelIdeal := fun m ρ _ => Cert.KernelIdeal.Gen.frame m ρ

/-- The idealized reference runs, and leaves its arguments as launched: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same [8, 2] result: the kernel's is
    the contents of its result buffer after its last stretch, which is the reference's last stage of the
    arguments (Boundaries.result_eq), and the reference's run ends at that stage of its own, equal, arguments. -/
theorem algebraic : Cert.algebraic_KernelIdeal_ReferenceIdeal := by
  intro m ρ m' ρ' _ hagree
  refine ⟨fun c => Cert.KernelIdeal.Gen.W8 m ρ c (Proc.devRef .tc Cert.KernelIdeal.main_v86),
    Cert.KernelIdeal.Named.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v109_eq, h0, h1, h2, h3, h4, h5, h6, h7, h8]
  exact (Cert.KernelIdeal.Boundaries.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
